-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S512 : Shape := ⟨1, ![512]⟩
abbrev S_ : Shape := ⟨0, ![]⟩
abbrev S1x512 : Shape := ⟨2, ![1, 512]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S512 : S_.BroadcastsInDim S512 (![] : Fin 0 → Fin S512.rank)
  reducesTo_S512_S_d0 : S512.ReducesTo [0] S_
  reducesTo_S131072x512_S512_d0 : S131072x512.ReducesTo [0] S512
  bcast_S512_S1x512_1 : S512.BroadcastsInDim S1x512 (![1] : Fin 1 → Fin S1x512.rank)
  bcast_S_S1x512 : S_.BroadcastsInDim S1x512 (![] : Fin 0 → Fin S1x512.rank)
  bcast_S1x512_S131072x512_0_1 : S1x512.BroadcastsInDim S131072x512 (![0, 1] : Fin 2 → Fin S131072x512.rank)

variable [Facts]

def fn_part1 {F : FTy → Type} [FloatOps F] (main_arg0 : FVec F S131072x512 .f32) (main_v13 : IVec S_ 1) (main_v15 : FVec F S1x512 .f32) (main_cst_5 : FVec F S_ .f32) : IVec S_ 1 :=
  let main_v16 : FVec F S1x512 .f32 := broadcastInDim S1x512 ![] bcast_S_S1x512 main_cst_5
  let main_v17 : FVec F S1x512 .f32 := Host.divf main_v15 main_v16
  let main_v18 : FVec F S131072x512 .f32 := broadcastInDim S131072x512 ![0, 1] bcast_S1x512_S131072x512_0_1 main_v17
  let main_v19 : FVec F S131072x512 .f32 := subf main_arg0 main_v18
  let main_v20 : FVec F S131072x512 .f32 := mulf main_v19 main_v19
  let main_cst_6 : FVec F S_ .f32 := constant S_ .f32 0x00000000#32
  let main_v21 : FVec F S512 .f32 := (fun x v => Host.reduceAdd x v reducesTo_S131072x512_S512_d0 h_S_) main_v20 main_cst_6
  let main_cst_7 : FVec F S_ .f32 := constant S_ .f32 0x48000000#32
  let main_v22 : FVec F S512 .f32 := broadcastInDim S512 ![] bcast_S_S512 main_cst_7
  let main_v23 : FVec F S512 .f32 := Host.divf main_v21 main_v22
  let main_cst_8 : FVec F S_ .f32 := constant S_ .f32 0x00000000#32
  let main_v24 : FVec F S512 .f32 := broadcastInDim S512 ![] bcast_S_S512 main_cst_8
  let main_v25 : IVec S512 1 := cmpf .ogt main_v23 main_v24
  let main_c_9 : IVec S_ 1 := constantI S_ 1 1#1
  let main_v26 : IVec S_ 1 := (fun x v => Host.reduce IntOp.andi x v reducesTo_S512_S_d0 h_S_) main_v25 main_c_9
  let main_v27 : IVec S_ 1 := andi main_v13 main_v26
  main_v27

def fn {F : FTy → Type} [FloatOps F] (main_arg0 : FVec F S131072x512 .f32) (main_arg1 : FVec F S512 .f32) (main_arg2 : FVec F S512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_cst_4 : FVec F S_ .f32 := constant S_ .f32 0x00000000#32
  let main_v14 : FVec F S512 .f32 := (fun x v => Host.reduceAdd x v reducesTo_S131072x512_S512_d0 h_S_) main_arg0 main_cst_4
  let main_v15 : FVec F S1x512 .f32 := broadcastInDim S1x512 ![1] bcast_S512_S1x512_1 main_v14
  let main_cst_5 : FVec F S_ .f32 := constant S_ .f32 0x48000000#32
  fn_part1 (F := F) main_arg0 main_v13 main_v15 main_cst_5
-- ==== Kernel.lean ====
abbrev S131072x512 : Shape := ⟨2, ![131072, 512]⟩
abbrev S512 : Shape := ⟨1, ![512]⟩
abbrev S16x512 : Shape := ⟨2, ![16, 512]⟩
abbrev S4096x512 : Shape := ⟨2, ![4096, 512]⟩
abbrev S8x512 : Shape := ⟨2, ![8, 512]⟩
abbrev S1x512 : Shape := ⟨2, ![1, 512]⟩
abbrev S_ : Shape := ⟨0, ![]⟩

abbrev nBuf : Space → Nat
  | .hbm => 29
  | .vmem => 12
  | .smem => 0
  | _ => 0

abbrev bufTy : (tb : Table) → Fin (tcTables nBuf tb) → BufTy
  | .hbm, ⟨0, _⟩ => ⟨S131072x512, .f32⟩
  | .hbm, ⟨1, _⟩ => ⟨S512, .f32⟩
  | .hbm, ⟨2, _⟩ => ⟨S512, .f32⟩
  | .hbm, ⟨3, _⟩ => ⟨S16x512, .f32⟩
  | .hbm, ⟨4, _⟩ => ⟨S16x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S_, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S131072x512, .f32⟩
  | .local _ .vmem, ⟨0, _⟩ => ⟨S4096x512, .f32⟩
  | .local _ .vmem, ⟨1, _⟩ => ⟨S4096x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S4096x512, .f32⟩
  | .local _ .vmem, ⟨7, _⟩ => ⟨S4096x512, .f32⟩
  | .local _ .vmem, ⟨8, _⟩ => ⟨S1x512, .f32⟩
  | .local _ .vmem, ⟨9, _⟩ => ⟨S1x512, .f32⟩
  | .local _ .vmem, ⟨10, _⟩ => ⟨S4096x512, .f32⟩
  | .local _ .vmem, ⟨11, _⟩ => ⟨S4096x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S4096x512_S4096x512_0_0 : ∀ a, (![0, 0] : Fin 2 → Nat) a + S4096x512.size a ≤ S4096x512.size a
  h_S4096x512 : 0 < S4096x512.numel
  reduces_S4096x512_S512 : S4096x512.Reduces [0] S512
  shapeCasts_S512_S1x512 : S512.ShapeCasts S1x512
  inb_S8x512_S8x512_0_0 : ∀ a, (![0, 0] : Fin 2 → Nat) a + S8x512.size a ≤ S8x512.size a
  h_S8x512 : 0 < S8x512.numel
  shapeCasts_S8x512_S8x512 : S8x512.ShapeCasts S8x512
  shapeCasts_S1x512_S1x512 : S1x512.ShapeCasts S1x512
  broadcasts_S1x512_S8x512 : S1x512.Broadcasts S8x512
  slices_S16x512_S1x512_0_0 : S16x512.Slices ![0, 0] S1x512
  slices_S16x512_S1x512_8_0 : S16x512.Slices ![8, 0] S1x512
  bcast_S_S1x512 : S_.BroadcastsInDim S1x512 (![] : Fin 0 → Fin S1x512.rank)
  inb_S1x512_S1x512_0_0 : ∀ a, (![0, 0] : Fin 2 → Nat) a + S1x512.size a ≤ S1x512.size a
  h_S1x512 : 0 < S1x512.numel
  broadcasts_S1x512_S4096x512 : S1x512.Broadcasts S4096x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S16x512.size a
  hwx0_1 : ∀ i : grid0.Coords, EltTy.bits .f32 = 32 ∨ (Rect.block (s := S16x512) S8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S16x512.size a
  hwx0_2 : ∀ i : grid0.Coords, EltTy.bits .f32 = 32 ∨ (Rect.block (s := S16x512) S8x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x512.size a ≤ S131072x512.size a
  hwx1_0 : ∀ i : grid1.Coords, EltTy.bits .f32 = 32 ∨ (Rect.block (s := S131072x512) S4096x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x512.size a ≤ S131072x512.size a
  hwx1_3 : ∀ i : grid1.Coords, EltTy.bits .f32 = 32 ∨ (Rect.block (s := S131072x512) S4096x512.size (cc1_transform_3 i) (hinb1_3 i)).WholeWords (EltTy.packing .f32)

variable [Facts₀]

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S8x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S4096x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S4096x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S131072x512 : Shape := ⟨2, ![131072, 512]⟩
abbrev S512 : Shape := ⟨1, ![512]⟩
abbrev S_ : Shape := ⟨0, ![]⟩
abbrev S1x512 : Shape := ⟨2, ![1, 512]⟩

abbrev nBuf : Space → Nat
  | .hbm => 27
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S512, .f32⟩
  | .hbm, ⟨2, _⟩ => ⟨S512, .f32⟩
  | .hbm, ⟨3, _⟩ => ⟨S_, .f32⟩
  | .hbm, ⟨4, _⟩ => ⟨S512, .f32⟩
  | .hbm, ⟨5, _⟩ => ⟨S1x512, .f32⟩
  | .hbm, ⟨6, _⟩ => ⟨S_, .f32⟩
  | .hbm, ⟨7, _⟩ => ⟨S1x512, .f32⟩
  | .hbm, ⟨8, _⟩ => ⟨S1x512, .f32⟩
  | .hbm, ⟨9, _⟩ => ⟨S131072x512, .f32⟩
  | .hbm, ⟨10, _⟩ => ⟨S131072x512, .f32⟩
  | .hbm, ⟨11, _⟩ => ⟨S131072x512, .f32⟩
  | .hbm, ⟨12, _⟩ => ⟨S_, .f32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S1x512, .f32⟩
  | .hbm, ⟨19, _⟩ => ⟨S131072x512, .f32⟩
  | .hbm, ⟨20, _⟩ => ⟨S131072x512, .f32⟩
  | .hbm, ⟨21, _⟩ => ⟨S1x512, .f32⟩
  | .hbm, ⟨22, _⟩ => ⟨S131072x512, .f32⟩
  | .hbm, ⟨23, _⟩ => ⟨S131072x512, .f32⟩
  | .hbm, ⟨24, _⟩ => ⟨S1x512, .f32⟩
  | .hbm, ⟨25, _⟩ => ⟨S131072x512, .f32⟩
  | .hbm, ⟨26, _⟩ => ⟨S131072x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  reducesTo_S131072x512_S512_d0 : S131072x512.ReducesTo [0] S512
  h_S_ : 0 < S_.numel
  bcast_S512_S1x512_1 : S512.BroadcastsInDim S1x512 (![1] : Fin 1 → Fin S1x512.rank)
  bcast_S_S1x512 : S_.BroadcastsInDim S1x512 (![] : Fin 0 → Fin S1x512.rank)
  bcast_S1x512_S131072x512_0_1 : S1x512.BroadcastsInDim S131072x512 (![0, 1] : Fin 2 → Fin S131072x512.rank)
  bcast_S_S512 : S_.BroadcastsInDim S512 (![] : Fin 0 → Fin S512.rank)

variable [Facts₀]

class Facts : Prop extends Facts₀ where

variable [Facts]
-- ==== Proof.KernelRun.lean ====
/-
  The idealized kernel's run with its result named.

  @main is two pipelined regions with a stretch of host operations between them. The generated frame follows the
  buffer contents through the three segments: `W0` at launch, `W1` after the statistics region (its two output
  arrays at what its write-backs leave), `W2` after the host operations, `W3` after the normalisation region.
  Every weakly fair execution of @main ends with each unscoped buffer at its `W3` contents: the result array at
  what the normalisation region's write-backs leave, the three argument arrays at their launch contents, which no
  host operation and no region writes.
-/
import proofs.«162346_j87076166959941_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the contents the
    last segment leaves for it and the three argument arrays as launched. -/
theorem run : θ_run defs (onTc (τ := τ) (main (F := F))) ⟨m, fun _ => 0, ρ⟩ (fun r => ∀ c : Dev nD,
      r.2.mem ((c.tc : Thread nD τ).loc main_v21) = V3 m ρ c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v21 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.RunValue

end
-- ==== Proof.Norm.lean ====
/-
  The normalisation region: its result array as one function of the arrays it is entered with.

  The region runs 32 grid points. Point `t` fetches rows `4096 t … 4096 t + 4095` of `X` and the whole `[1, 512]`
  scale and shift rows, stores `x · scale + shift` (the rows broadcast down the block) and writes the block back to the
  same rows of the result. So entry `(r, j)` of the result is `X(r, j) · scale(0, j) + shift(0, j)`: the blocks are
  restrictions of that one function, and every row `r` lies in the block of point `r / 4096`.
-/
import proofs.«162346_j87076166959941_2_alg».proof.Proof.Gen.KernelIdeal.Frame
import Idealize.ShloMosaic.Lib.Pipeline.Value
import Idealize.ShloMosaic.Lib.ValueIdx

set_option maxRecDepth 16384

noncomputable section

namespace Cert.KernelIdeal.NormValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Entry `(r, j)` goes to `x(r, j) · s(0, j) + h(0, j)`. -/
def affine (x : S131072x512.Idx → EReal) (s h : S1x512.Idx → EReal) : S131072x512.Idx → EReal :=
  fun i => x i * s (ix2 (0 : Fin 1) (⟨(i 1).val, (i 1).isLt⟩ : Fin 512))
    + h (ix2 (0 : Fin 1) (⟨(i 1).val, (i 1).isLt⟩ : Fin 512))

/-- `affine` at an index, from the three indices its factors are read at. -/
theorem affine_of_eq (x : S131072x512.Idx → EReal) (s h : S1x512.Idx → EReal) (i0 i3 : S131072x512.Idx) (i1 i2 : S1x512.Idx)
    (e0 : i0 = i3) (e1 : i1 = ix2 (0 : Fin 1) (⟨(i3 1).val, (i3 1).isLt⟩ : Fin 512))
    (e2 : i2 = ix2 (0 : Fin 1) (⟨(i3 1).val, (i3 1).isLt⟩ : Fin 512)) :
    x i0 * s i1 + h i2 = affine x s h i3 := by
  subst e0 e1 e2; rfl

/-- The body's one store, at `(p, q)` of the block: the loaded block times the scale row plus the shift row. -/
theorem pay_apply (x0 : S4096x512.Idx → EReal) (x1 x2 : S1x512.Idx → EReal) (p : Fin 4096) (q : Fin 512) :
    k1_pay1 (F := Ideal) x0 x1 x2 (ix2 p q) = x0 (ix2 p q) * x1 (ix2 (0 : Fin 1) q) + x2 (ix2 (0 : Fin 1) q) := by
  unfold k1_pay1
  rw [shapeCast_self, shapeCast_self]
  show x0 (ix2 p q) * broadcastTo S4096x512 x1 broadcasts_S1x512_S4096x512 (ix2 p q)
    + broadcastTo S4096x512 x2 broadcasts_S1x512_S4096x512 (ix2 p q) = _
  rw [broadcastTo_apply x1 broadcasts_S1x512_S4096x512 (ix2 p q) (ix2 (0 : Fin 1) q)
      (fun a => by match a with | ⟨0, _⟩ => rfl | ⟨1, _⟩ => rfl),
    broadcastTo_apply x2 broadcasts_S1x512_S4096x512 (ix2 p q) (ix2 (0 : Fin 1) q)
      (fun a => by match a with | ⟨0, _⟩ => rfl | ⟨1, _⟩ => rfl)]

/-- The printed index maps over the grid: the `X` block and the result block move together down the rows, one block
    per point; the scale and shift rows stay at block `(0, 0)`. -/
theorem idx_facts : ∀ t : Fin cfg1.N, win1_3.index t (0 : Fin 2) = t.val ∧ win1_3.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- WHAT POINT `t` WRITES BACK is block `t` of `affine` of the arrays as the region finds them. -/
theorem flushed_eq (c : Dev nD) (t : Fin cfg1.N) :
    (dat1 V c).flushed 3 t
      = ((cfg1.win 3).blk t).view.read (Elt Ideal) (affine (V c main_arg0) (V c main_v18) (V c main_v20)) := by
  show (cfg1.win 3).cut (grid1.coords t) ((dat1 V c).after 3 t) = _
  rw [after1_3]
  unfold out1_3
  rw [View.canon_unit_zero hz]
  simp only [View.ld_unit_zero (S := S4096x512) hz, View.ld_unit_zero (S := S1x512) hz]
  obtain ⟨e0, e1, e2, e3, e4, e5, e6, e7⟩ := idx_facts t
  funext y
  obtain ⟨p, q, rfl⟩ : ∃ (p : Fin 4096) (q : Fin 512), y = ix2 p q := ⟨y 0, y 1, eq_ix2 y⟩
  refine (pay_apply _ _ _ p q).trans ?_
  have h0 : ((cfg1.win 0).blk t).view.emb (ix2 p q) = ((cfg1.win 3).blk t).view.emb (ix2 p q) := by
    funext a; apply Fin.ext
    match a with
    | ⟨0, _⟩ => show win1_0.index t (0 : Fin 2) * 4096 + 1 * p.val = win1_3.index t (0 : Fin 2) * 4096 + 1 * p.val; omega
    | ⟨1, _⟩ => show win1_0.index t (1 : Fin 2) * 512 + 1 * q.val = win1_3.index t (1 : Fin 2) * 512 + 1 * q.val; omega
  have h1 : ((cfg1.win 1).blk t).view.emb (ix2 (0 : Fin 1) q)
      = ix2 (0 : Fin 1) (⟨((((cfg1.win 3).blk t).view.emb (ix2 p q)) 1).val, ((((cfg1.win 3).blk t).view.emb (ix2 p q)) 1).isLt⟩ : Fin 512) := by
    funext a; apply Fin.ext
    match a with
    | ⟨0, _⟩ => show win1_1.index t (0 : Fin 2) * 1 + 1 * 0 = 0; omega
    | ⟨1, _⟩ => show win1_1.index t (1 : Fin 2) * 512 + 1 * q.val = win1_3.index t (1 : Fin 2) * 512 + 1 * q.val; omega
  have h2 : ((cfg1.win 2).blk t).view.emb (ix2 (0 : Fin 1) q)
      = ix2 (0 : Fin 1) (⟨((((cfg1.win 3).blk t).view.emb (ix2 p q)) 1).val, ((((cfg1.win 3).blk t).view.emb (ix2 p q)) 1).isLt⟩ : Fin 512) := by
    funext a; apply Fin.ext
    match a with
    | ⟨0, _⟩ => show win1_2.index t (0 : Fin 2) * 1 + 1 * 0 = 0; omega
    | ⟨1, _⟩ => show win1_2.index t (1 : Fin 2) * 512 + 1 * q.val = win1_3.index t (1 : Fin 2) * 512 + 1 * q.val; omega
  exact affine_of_eq (V c main_arg0) (V c main_v18) (V c main_v20)
    (((cfg1.win 0).blk t).view.emb (ix2 p q)) (((cfg1.win 3).blk t).view.emb (ix2 p q))
    (((cfg1.win 1).blk t).view.emb (ix2 (0 : Fin 1) q)) (((cfg1.win 2).blk t).view.emb (ix2 (0 : Fin 1) q)) h0 h1 h2

/-- An index of the result is in point `t`'s block iff each coordinate is in the block's range on its axis. -/
theorem mem_blk (t : Fin cfg1.N) (i : S131072x512.Idx) :
    i ∈ ((cfg1.win 3).blk t).view.set
      ↔ ∀ a : Fin 2, win1_3.index t a * S4096x512.size a ≤ (i a).val
          ∧ (i a).val < win1_3.index t a * S4096x512.size a + S4096x512.size a := by
  show i ∈ ((View.whole main_v21).slice (win1_3.rect t)).set ↔ _
  rw [View.set_slice_whole, Rect.mem_set_unit]
  exact Iff.rfl

/-- Every index of the result is in the block of the point its row falls in. -/
theorem cover (i : S131072x512.Idx) :
    ∃ t : Fin cfg1.N, (cfg1.win 3).flush t = true ∧ i ∈ ((cfg1.win 3).blk t).view.set := by
  have hN : cfg1.N = 32 := N_1
  have hi0 : (i 0).val < 131072 := (i 0).isLt
  have hi1 : (i 1).val < 512 := (i 1).isLt
  let t : Fin cfg1.N := ⟨(i 0).val / 4096, by rw [hN]; omega⟩
  have ht : t.val = (i 0).val / 4096 := rfl
  obtain ⟨e0, e1, -⟩ := idx_facts t
  refine ⟨t, flush1_3 t, ?_⟩
  rw [mem_blk]
  intro a
  match a with
  | ⟨0, _⟩ => show win1_3.index t (0 : Fin 2) * 4096 ≤ (i 0).val ∧ (i 0).val < win1_3.index t (0 : Fin 2) * 4096 + 4096; omega
  | ⟨1, _⟩ => show win1_3.index t (1 : Fin 2) * 512 ≤ (i 1).val ∧ (i 1).val < win1_3.index t (1 : Fin 2) * 512 + 512; omega

/-- THE RESULT ARRAY after the region: `affine` of the arrays the region is entered with. -/
theorem final (c : Dev nD) :
    (dat1 V c).arrAt 3 cfg1.N = affine (V c main_arg0) (V c main_v18) (V c main_v20) :=
  (dat1 V c).arrAt_eq_of_cover 3 (affine (V c main_arg0) (V c main_v18) (V c main_v20))
    (fun t _ => flushed_eq V c t) cover

end Cert.KernelIdeal.NormValue

end
-- ==== Proof.StatsPieces.lean ====
/-
  The statistics region's body, read as values.

  At a grid point the body loads a block `x` of 4096 rows, forms the row vector of its column sums and of the column
  sums of its squares, and adds each, broadcast down eight rows, to an `[8, 512]` accumulator. At the first point of
  a core's share (inner grid index 0) it first stores zeros in both accumulators and reads them back; elsewhere it
  reads what the point before left. So after the body the sum accumulator holds, at `(k, j)`, its previous contents
  (or zero) plus `∑ₚ x(p, j)`, and the square accumulator the same with `x(p, j)²`.
-/
import proofs.«162346_j87076166959941_2_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

namespace Cert.KernelIdeal.StatsValue

open Cert.KernelIdeal Cert.KernelIdeal.Gen
open Idealize.ShloMosaic Idealize.ShloMosaic.TcCoe Idealize.SL.Sem Idealize.ShloMosaic.Tactic Idealize.ShloMosaic.ValueIdx

theorem hz : (![0, 0] : Fin 2 → Nat) = fun _ => 0 := funext fun a => by fin_cases a <;> rfl

/-! ## What each case leaves in the two accumulators, for any float values -/

section pieces

variable {F : FTy → Type} [FloatOps F]

/-- Away from the first point of a share the sum accumulator, holding `xo1`, is left at the body's sum payload of the
    block and `xo1`. -/
theorem sum_later (c : Dev nD) (i : grid0.Coords) (a2 : Memref sig .tc .vmem S4096x512 .f32) (h2 : a2.IsWhole)
    (a3 : Memref sig .tc .vmem S8x512 .f32) (h3 : a3.IsWhole) (a4 : Memref sig .tc .vmem S8x512 .f32) (h4 : a4.IsWhole)
    (hc : ¬cond0_0 i) (x : Vec F S4096x512 .f32) (xo1 xo2 : Vec F S8x512 .f32) :
    out0_B_1 c i a2 h2 a3 h3 a4 h4 hc x xo1 xo2 = k0_pay3 x xo1 := by
  unfold out0_B_1
  rw [View.read_writes_eq_canon _ _ _ (cover0_B_1 c i a2 h2 a3 h3 a4 h4 hc x xo1 xo2)]
  unfold kernelRun0_B
  dsimp only
  rw [View.canon_unit_zero hz]
  simp only [View.readAt_eq_ld, h2.read_unread, h3.read_unread, View.ld_unit_zero (S := S4096x512) hz,
    View.ld_unit_zero (S := S8x512) hz]

/-- The square accumulator likewise. -/
theorem sq_later (c : Dev nD) (i : grid0.Coords) (a2 : Memref sig .tc .vmem S4096x512 .f32) (h2 : a2.IsWhole)
    (a3 : Memref sig .tc .vmem S8x512 .f32) (h3 : a3.IsWhole) (a4 : Memref sig .tc .vmem S8x512 .f32) (h4 : a4.IsWhole)
    (hc : ¬cond0_0 i) (x : Vec F S4096x512 .f32) (xo1 xo2 : Vec F S8x512 .f32) :
    out0_B_2 c i a2 h2 a3 h3 a4 h4 hc x xo1 xo2 = k0_pay4 x xo2 := by
  unfold out0_B_2
  rw [View.read_writes_eq_canon _ _ _ (cover0_B_2 c i a2 h2 a3 h3 a4 h4 hc x xo1 xo2)]
  unfold kernelRun0_B
  dsimp only
  rw [View.canon_unit_zero hz]
  simp only [View.readAt_eq_ld, h2.read_unread, h4.read_unread, View.ld_unit_zero (S := S4096x512) hz,
    View.ld_unit_zero (S := S8x512) hz]

/-- At the first point of a share the sum accumulator is zeroed, read back, and left at the sum payload of the block
    and the zero block. -/
theorem sum_first (c : Dev nD) (i : grid0.Coords) (a2 : Memref sig .tc .vmem S4096x512 .f32) (h2 : a2.IsWhole)
    (a3 : Memref sig .tc .vmem S8x512 .f32) (h3 : a3.IsWhole) (a4 : Memref sig .tc .vmem S8x512 .f32) (h4 : a4.IsWhole)
    (hc : cond0_0 i) (x : Vec F S4096x512 .f32) :
    out0_A_1 c i a2 h2 a3 h3 a4 h4 hc x = k0_pay3 x (k0_pay1 (F := F)) := by
  unfold out0_A_1
  rw [View.read_writes_eq_canon _ _ _ (cover0_A_1 c i a2 h2 a3 h3 a4 h4 hc x)]
  unfold kernelRun0_A
  dsimp only
  sl_unfold_words
  rw [View.canon_cons_unit_zero (S := S8x512) hz, View.readCov_unit_zero (S := S8x512) _ hz]
  simp only [View.readAt_eq_ld, h2.read_unread, View.ld_unit_zero (S := S4096x512) hz]

/-- The square accumulator likewise. -/
theorem sq_first (c : Dev nD) (i : grid0.Coords) (a2 : Memref sig .tc .vmem S4096x512 .f32) (h2 : a2.IsWhole)
    (a3 : Memref sig .tc .vmem S8x512 .f32) (h3 : a3.IsWhole) (a4 : Memref sig .tc .vmem S8x512 .f32) (h4 : a4.IsWhole)
    (hc : cond0_0 i) (x : Vec F S4096x512 .f32) :
    out0_A_2 c i a2 h2 a3 h3 a4 h4 hc x = k0_pay4 x (k0_pay2 (F := F)) := by
  unfold out0_A_2
  rw [View.read_writes_eq_canon _ _ _ (cover0_A_2 c i a2 h2 a3 h3 a4 h4 hc x)]
  unfold kernelRun0_A
  dsimp only
  sl_unfold_words
  rw [View.canon_cons_unit_zero (S := S8x512) hz, View.readCov_unit_zero (S := S8x512) _ hz]
  simp only [View.readAt_eq_ld, h2.read_unread, View.ld_unit_zero (S := S4096x512) hz]

end pieces

/-! ## The payloads at an index, on the extended reals -/

/-- A lane sum over the rows of a `[4096, 512]` block, at column `j`. -/
theorem colsum_apply (v : S4096x512.Idx → EReal) (hφ : FKind.Formats .f32)
    (hacc : (0x00000000#32 : BitVec 32) = FKind.add.neutral .f32 hφ) (j : Fin 512) :
    multiReduction (F := Ideal) .add [0] S512 v 0x00000000#32 reduces_S4096x512_S512 hφ hacc (ix1 j)
      = ∑ p : Fin 4096, v (ix2 p j) := by
  refine (Ideal.multiReduction_add_single v _ reduces_S4096x512_S512 hφ hacc (ix1 j)).trans ?_
  refine Finset.sum_congr rfl fun p _ => congrArg v ?_
  funext a; apply Fin.ext
  match a with
  | ⟨0, _⟩ => rfl
  | ⟨1, _⟩ => rfl

/-- A `[512]` vector cast to a row and broadcast down eight rows, at `(k, j)`, is the vector at `j`. -/
theorem row_bcast_apply (w : S512.Idx → EReal) (k : Fin 8) (j : Fin 512) :
    broadcastTo S8x512 (shapeCast S1x512 (shapeCast S1x512 w shapeCasts_S512_S1x512) shapeCasts_S1x512_S1x512)
      broadcasts_S1x512_S8x512 (ix2 k j) = w (ix1 j) := by
  rw [shapeCast_self]
  refine (broadcastTo_apply _ broadcasts_S1x512_S8x512 (ix2 k j) (ix2 (0 : Fin 1) j)
    (fun a => by match a with | ⟨0, _⟩ => rfl | ⟨1, _⟩ => rfl)).trans ?_
  refine shapeCast_apply w shapeCasts_S512_S1x512 (ix2 (0 : Fin 1) j) (ix1 j) ?_
  rw [Shape.rowMajor_val_one, Shape.rowMajor_val_two]
  show j.val = (0 : Fin 1).val * 512 + j.val
  simp

/-- The sum payload at `(k, j)`: the accumulator's entry plus the block's column sum. -/
theorem pay_sum_apply (v0 : S4096x512.Idx → EReal) (v9 : S8x512.Idx → EReal) (k : Fin 8) (j : Fin 512) :
    k0_pay3 (F := Ideal) v0 v9 (ix2 k j) = v9 (ix2 k j) + ∑ p : Fin 4096, v0 (ix2 p j) := by
  unfold k0_pay3
  rw [shapeCast_self]
  refine congrArg (v9 (ix2 k j) + ·) ?_
  refine (row_bcast_apply _ k j).trans ?_
  exact colsum_apply v0 _ _ j

/-- The square payload at `(k, j)`: the accumulator's entry plus the column sum of the block's squares. -/
theorem pay_sq_apply (v0 : S4096x512.Idx → EReal) (v15 : S8x512.Idx → EReal) (k : Fin 8) (j : Fin 512) :
    k0_pay4 (F := Ideal) v0 v15 (ix2 k j) = v15 (ix2 k j) + ∑ p : Fin 4096, v0 (ix2 p j) * v0 (ix2 p j) := by
  unfold k0_pay4
  rw [shapeCast_self]
  refine congrArg (v15 (ix2 k j) + ·) ?_
  refine (row_bcast_apply _ k j).trans ?_
  exact colsum_apply (fun i => v0 i * v0 i) _ _ j

/-- The zero blocks the first point stores are zero everywhere. -/
theorem zero_sum_apply (i : S8x512.Idx) : k0_pay1 (F := Ideal) i = 0 := by
  unfold k0_pay1
  show Ideal.ofBits .f32 0x00000000#32 = 0
  exact Ideal.ofBits_zero_f32
theorem zero_sq_apply (i : S8x512.Idx) : k0_pay2 (F := Ideal) i = 0 := by
  unfold k0_pay2
  show Ideal.ofBits .f32 0x00000000#32 = 0
  exact Ideal.ofBits_zero_f32

end Cert.KernelIdeal.StatsValue

end
-- ==== Proof.Stats.lean ====
/-
  The statistics region: its two output arrays as functions of `X`.

  The grid has 32 points, in two shares of 16: point `t` fetches rows `4096 t … 4096 t + 4095` of `X`. Within a share
  the accumulators are reset at the first point, grow by the block's column sums (of the entries, and of their squares)
  at every point, and are written back after the last: share `g` writes rows `8 g … 8 g + 7` of the `[16, 512]`
  outputs. Writing `X(R, j)` for row `R` (zero beyond the array), after point `n` an accumulator holds at `(k, j)`

      0 + ∑ r < 4096 · (n % 16 + 1),  f (X (4096 · (n − n % 16) + r, j))        (f the identity, or the square),

  by induction on `n`: a first point starts the sum with its own block, a later one appends its block to what the
  point before left. At the last point of share `g` this is the sum over the 65536 rows of the share, and that is
  what every row `8 g + k` of the output holds.
-/
import proofs.«162346_j87076166959941_2_alg».proof.Proof.StatsPieces

set_option maxRecDepth 16384

noncomputable section

namespace Cert.KernelIdeal.StatsValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Row `R` of `x` at column `j`; zero beyond the array. -/
def rowAt (x : S131072x512.Idx → EReal) (R : ℕ) (j : Fin 512) : EReal :=
  if h : R < 131072 then x (ix2 (⟨R, h⟩ : Fin 131072) j) else 0

/-- The accumulated sum after point `n`: the rows of the point's share up to and including the point's block. -/
def partialSum (x : S131072x512.Idx → EReal) (f : EReal → EReal) (n : ℕ) (j : Fin 512) : EReal :=
  ∑ r ∈ Finset.range (4096 * (n % 16 + 1)), f (rowAt x (4096 * (n - n % 16) + r) j)

theorem partialSum_first (x : S131072x512.Idx → EReal) (f : EReal → EReal) (n : ℕ) (h : n % 16 = 0) (j : Fin 512) :
    partialSum x f n j = ∑ p ∈ Finset.range 4096, f (rowAt x (4096 * n + p) j) := by
  unfold partialSum
  rw [h]
  simp only [Nat.zero_add, Nat.mul_one, Nat.sub_zero]

theorem partialSum_later (x : S131072x512.Idx → EReal) (f : EReal → EReal) (n : ℕ) (h : ¬n % 16 = 0) (j : Fin 512) :
    partialSum x f n j
      = partialSum x f (n - 1) j + ∑ p ∈ Finset.range 4096, f (rowAt x (4096 * n + p) j) := by
  unfold partialSum
  have e1 : (n - 1) % 16 + 1 = n % 16 := by omega
  have e2 : n - 1 - (n - 1) % 16 = n - n % 16 := by omega
  rw [e1, e2, show 4096 * (n % 16 + 1) = 4096 * (n % 16) + 4096 by ring, Finset.sum_range_add]
  refine congrArg _ (Finset.sum_congr rfl fun p _ => ?_)
  rw [show 4096 * (n - n % 16) + (4096 * (n % 16) + p) = 4096 * n + p by omega]

/-- The printed index maps over the grid: the `X` block moves one block of rows per point; both outputs stay on the
    share's block of eight rows. -/
theorem idx_facts : ∀ t : Fin cfg0.N, win0_0.index t (0 : Fin 2) = t.val ∧ win0_0.index t (1 : Fin 2) = 0
    ∧ win0_1.index t (0 : Fin 2) = t.val / 16 ∧ win0_1.index t (1 : Fin 2) = 0
    ∧ win0_2.index t (0 : Fin 2) = t.val / 16 ∧ win0_2.index t (1 : Fin 2) = 0 :=
  (by decide +kernel : ∀ t : Fin grid0.N, _)

/-- Point `t`'s block of `X`. -/
abbrev blk (c : Dev nD) (t : Fin cfg0.N) : S4096x512.Idx → EReal := iblk0 V c 0 t

/-- Point `t`'s block of `X` at `(p, j)` is row `4096 t + p`. -/
theorem iblk_apply (c : Dev nD) (t : Fin cfg0.N) (p : Fin 4096) (j : Fin 512) :
    blk V c t (ix2 p j) = rowAt (V c main_arg0) (4096 * t.val + p.val) j := by
  have hN : cfg0.N = 32 := N_0
  obtain ⟨e0, e1, -⟩ := idx_facts t
  unfold rowAt
  rw [dif_pos (by have := p.isLt; have := t.isLt; omega)]
  show (V c main_arg0 : S131072x512.Idx → EReal) (((cfg0.win 0).blk t).view.emb (ix2 p j)) = _
  refine congrArg (V c main_arg0 : S131072x512.Idx → EReal) ?_
  funext a; apply Fin.ext
  match a with
  | ⟨0, _⟩ => show win0_0.index t (0 : Fin 2) * 4096 + 1 * p.val = 4096 * t.val + p.val; omega
  | ⟨1, _⟩ => show win0_0.index t (1 : Fin 2) * 512 + 1 * j.val = j.val; omega

theorem block_sum (c : Dev nD) (t : Fin cfg0.N) (j : Fin 512) :
    ∑ p : Fin 4096, blk V c t (ix2 p j)
      = ∑ p ∈ Finset.range 4096, rowAt (V c main_arg0) (4096 * t.val + p) j := by
  rw [Finset.sum_range]
  exact Finset.sum_congr rfl fun p _ => iblk_apply V c t p j

theorem block_sum_sq (c : Dev nD) (t : Fin cfg0.N) (j : Fin 512) :
    ∑ p : Fin 4096, blk V c t (ix2 p j) * blk V c t (ix2 p j)
      = ∑ p ∈ Finset.range 4096, rowAt (V c main_arg0) (4096 * t.val + p) j * rowAt (V c main_arg0) (4096 * t.val + p) j := by
  rw [Finset.sum_range]
  exact Finset.sum_congr rfl fun p _ => by rw [iblk_apply V c t p j]

/-! ## The accumulators after each point -/

/-- What the two accumulators hold after point `n`, at `(k, j)`. -/
def AccAt (c : Dev nD) (n : ℕ) (h : n < cfg0.N) : Prop :=
  ∀ (k : Fin 8) (j : Fin 512),
    ((outsAt0 V c n h).1 : S8x512.Idx → EReal) (ix2 k j) = 0 + partialSum (V c main_arg0) (fun a => a) n j
    ∧ ((outsAt0 V c n h).2 : S8x512.Idx → EReal) (ix2 k j) = 0 + partialSum (V c main_arg0) (fun a => a * a) n j

/-- A first point of a share: zero plus its own block. -/
theorem acc_first (c : Dev nD) (t : Fin cfg0.N) (h0 : t.val % 16 = 0) : AccAt V c t.val t.isLt := by
  intro k j
  rw [outsAt0_A V c t h0]
  dsimp only
  constructor
  · refine (congrFun (sum_first (F := Ideal) c (grid0.coords t) (ms0_0 t) (hs0_0 t) (ms0_1 t) (hs0_1 t) (ms0_2 t) (hs0_2 t)
      ((hcond0_0 t).mpr h0) (iblk0 V c 0 t)) (ix2 k j)).trans ?_
    refine (pay_sum_apply (blk V c t) (k0_pay1 (F := Ideal)) k j).trans ?_
    rw [zero_sum_apply, block_sum V c t j, partialSum_first _ _ _ h0]
  · refine (congrFun (sq_first (F := Ideal) c (grid0.coords t) (ms0_0 t) (hs0_0 t) (ms0_1 t) (hs0_1 t) (ms0_2 t) (hs0_2 t)
      ((hcond0_0 t).mpr h0) (iblk0 V c 0 t)) (ix2 k j)).trans ?_
    refine (pay_sq_apply (blk V c t) (k0_pay2 (F := Ideal)) k j).trans ?_
    rw [zero_sq_apply, block_sum_sq V c t j, partialSum_first _ _ _ h0]

/-- A later point: what the point before left, plus its own block. -/
theorem acc_later (c : Dev nD) (t : Fin cfg0.N) (h0 : ¬t.val % 16 = 0)
    (ih : AccAt V c (t.val - 1) (Nat.lt_of_le_of_lt (Nat.sub_le _ _) t.isLt)) : AccAt V c t.val t.isLt := by
  intro k j
  rw [outsAt0_B V c t h0]
  dsimp only
  constructor
  · refine (congrFun (sum_later (F := Ideal) c (grid0.coords t) (ms0_0 t) (hs0_0 t) (ms0_1 t) (hs0_1 t) (ms0_2 t) (hs0_2 t)
      (fun h => h0 ((hcond0_0 t).mp h)) (iblk0 V c 0 t)
      (outsAt0 V c (t.val - 1) (Nat.lt_of_le_of_lt (Nat.sub_le _ _) t.isLt)).1
      (outsAt0 V c (t.val - 1) (Nat.lt_of_le_of_lt (Nat.sub_le _ _) t.isLt)).2) (ix2 k j)).trans ?_
    refine (pay_sum_apply (blk V c t) _ k j).trans ?_
    rw [(ih k j).1, block_sum V c t j, partialSum_later _ _ _ h0, add_assoc]
  · refine (congrFun (sq_later (F := Ideal) c (grid0.coords t) (ms0_0 t) (hs0_0 t) (ms0_1 t) (hs0_1 t) (ms0_2 t) (hs0_2 t)
      (fun h => h0 ((hcond0_0 t).mp h)) (iblk0 V c 0 t)
      (outsAt0 V c (t.val - 1) (Nat.lt_of_le_of_lt (Nat.sub_le _ _) t.isLt)).1
      (outsAt0 V c (t.val - 1) (Nat.lt_of_le_of_lt (Nat.sub_le _ _) t.isLt)).2) (ix2 k j)).trans ?_
    refine (pay_sq_apply (blk V c t) _ k j).trans ?_
    rw [(ih k j).2, block_sum_sq V c t j, partialSum_later _ _ _ h0, add_assoc]

/-- After every point, by induction on the point. -/
theorem acc_eq (c : Dev nD) : ∀ (n : ℕ) (h : n < cfg0.N), AccAt V c n h
  | 0, h => acc_first V c ⟨0, h⟩ rfl
  | n + 1, h => by
    by_cases h0 : (n + 1) % 16 = 0
    · exact acc_first V c ⟨n + 1, h⟩ h0
    · exact acc_later V c ⟨n + 1, h⟩ h0 (acc_eq c n _)

/-! ## The output arrays -/

/-- The sum over the 65536 rows of share `g`, at column `j`. -/
def shareTotal (x : S131072x512.Idx → EReal) (f : EReal → EReal) (g : ℕ) (j : Fin 512) : EReal :=
  0 + ∑ r ∈ Finset.range 65536, f (rowAt x (65536 * g + r) j)

/-- Row `8 g + k` of an output holds the total of share `g`. -/
def shareSum (x : S131072x512.Idx → EReal) (f : EReal → EReal) : S16x512.Idx → EReal :=
  fun i => shareTotal x f ((i 0).val / 8) (⟨(i 1).val, (i 1).isLt⟩ : Fin 512)

theorem shareSum_at (x : S131072x512.Idx → EReal) (f : EReal → EReal) (q : Fin 16) (j : Fin 512) :
    shareSum x f (ix2 q j) = shareTotal x f (q.val / 8) j := rfl

/-- The accumulated sum after the last point of a share is the share's sum, at the rows the share writes. -/
theorem partialSum_last (x : S131072x512.Idx → EReal) (f : EReal → EReal) (n : ℕ) (h15 : n % 16 = 15)
    (i : S16x512.Idx) (k : Fin 8) (j : Fin 512) (hi0 : (i 0).val = n / 16 * 8 + 1 * k.val) (hi1 : (i 1).val = 0 * 512 + 1 * j.val) :
    0 + partialSum x f n j = shareSum x f i := by
  unfold shareSum shareTotal partialSum
  have hj : (⟨(i 1).val, (i 1).isLt⟩ : Fin 512) = j := Fin.ext (by show (i 1).val = j.val; omega)
  have hb : 65536 * ((i 0).val / 8) = 4096 * (n - n % 16) := by have := k.isLt; omega
  rw [hj, hb, h15]

theorem mem_blk_sum (t : Fin cfg0.N) (i : S16x512.Idx) :
    i ∈ ((cfg0.win 1).blk t).view.set
      ↔ ∀ a : Fin 2, win0_1.index t a * S8x512.size a ≤ (i a).val ∧ (i a).val < win0_1.index t a * S8x512.size a + S8x512.size a := by
  show i ∈ ((View.whole main_v0_0).slice (win0_1.rect t)).set ↔ _
  rw [View.set_slice_whole, Rect.mem_set_unit]
  exact Iff.rfl

theorem mem_blk_sq (t : Fin cfg0.N) (i : S16x512.Idx) :
    i ∈ ((cfg0.win 2).blk t).view.set
      ↔ ∀ a : Fin 2, win0_2.index t a * S8x512.size a ≤ (i a).val ∧ (i a).val < win0_2.index t a * S8x512.size a + S8x512.size a := by
  show i ∈ ((View.whole main_v0_1).slice (win0_2.rect t)).set ↔ _
  rw [View.set_slice_whole, Rect.mem_set_unit]
  exact Iff.rfl

/-- What the last point of a share writes back to the sum output. -/
theorem flushed_sum (c : Dev nD) (t : Fin cfg0.N) (hf : (cfg0.win 1).flush t = true) :
    (dat0 V c).flushed 1 t = ((cfg0.win 1).blk t).view.read (Elt Ideal) (shareSum (V c main_arg0) (fun a => a)) := by
  have h15 : t.val % 16 = 15 := (flush0_1 t).mp hf
  obtain ⟨-, -, e2, e3, -⟩ := idx_facts t
  show (cfg0.win 1).cut (grid0.coords t) ((dat0 V c).after 1 t) = _
  rw [after0_1]
  funext y
  obtain ⟨k, j, rfl⟩ : ∃ (k : Fin 8) (j : Fin 512), y = ix2 k j := ⟨y 0, y 1, eq_ix2 y⟩
  refine ((acc_eq V c t.val t.isLt k j).1).trans ?_
  refine partialSum_last _ _ t.val h15 (((cfg0.win 1).blk t).view.emb (ix2 k j)) k j ?_ ?_
  · show win0_1.index t (0 : Fin 2) * 8 + 1 * k.val = t.val / 16 * 8 + 1 * k.val; rw [e2]
  · show win0_1.index t (1 : Fin 2) * 512 + 1 * j.val = 0 * 512 + 1 * j.val; rw [e3]

/-- What the last point of a share writes back to the square output. -/
theorem flushed_sq (c : Dev nD) (t : Fin cfg0.N) (hf : (cfg0.win 2).flush t = true) :
    (dat0 V c).flushed 2 t = ((cfg0.win 2).blk t).view.read (Elt Ideal) (shareSum (V c main_arg0) (fun a => a * a)) := by
  have h15 : t.val % 16 = 15 := (flush0_2 t).mp hf
  obtain ⟨-, -, -, -, e4, e5⟩ := idx_facts t
  show (cfg0.win 2).cut (grid0.coords t) ((dat0 V c).after 2 t) = _
  rw [after0_2]
  funext y
  obtain ⟨k, j, rfl⟩ : ∃ (k : Fin 8) (j : Fin 512), y = ix2 k j := ⟨y 0, y 1, eq_ix2 y⟩
  refine ((acc_eq V c t.val t.isLt k j).2).trans ?_
  refine partialSum_last _ _ t.val h15 (((cfg0.win 2).blk t).view.emb (ix2 k j)) k j ?_ ?_
  · show win0_2.index t (0 : Fin 2) * 8 + 1 * k.val = t.val / 16 * 8 + 1 * k.val; rw [e4]
  · show win0_2.index t (1 : Fin 2) * 512 + 1 * j.val = 0 * 512 + 1 * j.val; rw [e5]

/-- Every row of the sum output is in the block the last point of its share writes. -/
theorem cover_sum (i : S16x512.Idx) :
    ∃ t : Fin cfg0.N, (cfg0.win 1).flush t = true ∧ i ∈ ((cfg0.win 1).blk t).view.set := by
  have hN : cfg0.N = 32 := N_0
  have hi0 : (i 0).val < 16 := (i 0).isLt
  have hi1 : (i 1).val < 512 := (i 1).isLt
  let t : Fin cfg0.N := ⟨16 * ((i 0).val / 8) + 15, by rw [hN]; omega⟩
  have ht : t.val = 16 * ((i 0).val / 8) + 15 := rfl
  obtain ⟨-, -, e2, e3, -⟩ := idx_facts t
  refine ⟨t, (flush0_1 t).mpr (by omega), ?_⟩
  rw [mem_blk_sum]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 512 ≤ (i 1).val ∧ (i 1).val < win0_1.index t (1 : Fin 2) * 512 + 512; omega

theorem cover_sq (i : S16x512.Idx) :
    ∃ t : Fin cfg0.N, (cfg0.win 2).flush t = true ∧ i ∈ ((cfg0.win 2).blk t).view.set := by
  have hN : cfg0.N = 32 := N_0
  have hi0 : (i 0).val < 16 := (i 0).isLt
  have hi1 : (i 1).val < 512 := (i 1).isLt
  let t : Fin cfg0.N := ⟨16 * ((i 0).val / 8) + 15, by rw [hN]; omega⟩
  have ht : t.val = 16 * ((i 0).val / 8) + 15 := rfl
  obtain ⟨-, -, -, -, e4, e5⟩ := idx_facts t
  refine ⟨t, (flush0_2 t).mpr (by omega), ?_⟩
  rw [mem_blk_sq]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 512 ≤ (i 1).val ∧ (i 1).val < win0_2.index t (1 : Fin 2) * 512 + 512; omega

/-- THE SUM OUTPUT after the region. -/
theorem final_sum (c : Dev nD) : (dat0 V c).arrAt 1 cfg0.N = shareSum (V c main_arg0) (fun a => a) :=
  (dat0 V c).arrAt_eq_of_cover 1 (shareSum (V c main_arg0) (fun a => a)) (flushed_sum V c) cover_sum

/-- THE SQUARE OUTPUT after the region. -/
theorem final_sq (c : Dev nD) : (dat0 V c).arrAt 2 cfg0.N = shareSum (V c main_arg0) (fun a => a * a) :=
  (dat0 V c).arrAt_eq_of_cover 2 (shareSum (V c main_arg0) (fun a => a * a)) (flushed_sq V c) cover_sq

/-! ## The two shares together -/

/-- The two shares' sums add to the sum over all 131072 rows. -/
theorem shares_total (x : S131072x512.Idx → EReal) (f : EReal → EReal) (j : Fin 512) :
    shareSum x f (ix2 (0 : Fin 16) j) + shareSum x f (ix2 (8 : Fin 16) j)
      = ∑ k : Fin 131072, f (x (ix2 k j)) := by
  have hR : ∑ k : Fin 131072, f (x (ix2 k j)) = ∑ R ∈ Finset.range 131072, f (rowAt x R j) := by
    rw [Finset.sum_range]
    refine Finset.sum_congr rfl fun k _ => ?_
    unfold rowAt
    rw [dif_pos k.isLt]
  rw [shareSum_at, shareSum_at, show (0 : Fin 16).val / 8 = 0 by decide, show (8 : Fin 16).val / 8 = 1 by decide, hR]
  unfold shareTotal
  rw [zero_add, zero_add, show (131072 : ℕ) = 65536 + 65536 by norm_num, Finset.sum_range_add]
  simp only [Nat.mul_zero, Nat.zero_add, Nat.mul_one]

end Cert.KernelIdeal.StatsValue

end
-- ==== Proof.Spec.lean ====
/-
  Normalising a column by its own mean and variance, on the extended reals: the two arrangements are one function.

  A column `col : ι → EReal` of `N = 131072` entries, a scale `g` and a shift `b`. With `μ = (∑ col) / N`:

  • one arrangement centres first: `σ = (∑ (col k − μ)²) / N`, and the entry `x` goes to
    `((x − μ) · σ^(-1/2)) · g + b`;
  • the other takes the raw moments `s = ∑ col k`, `q = ∑ (col k)²`, forms `v = max (q / N − (s/N)², 0)`, folds
    `scale = v^(-1/2) · g`, `shift = b − (s/N) · scale`, and sends `x` to `x · scale + shift`.

  For real entries `q / N − (s/N)² = σ` exactly (expand the square and use `s = N μ`), so `v = σ` as soon as `σ ≥ 0`,
  which it always is; and when `σ > 0` its inverse square root is a real number, every intermediate is real, and the
  two outputs differ by the ring identity `x (w g) + (b − μ (w g)) = ((x − μ) w) g + b`. When `σ = 0` the inverse square
  root is `+∞` and the two arrangements part (one meets `0 · ∞`, the other `∞ − ∞`): the hypothesis `0 < σ` is needed.
-/
import Idealize.ShloMosaic.PureOps.Ideal
import Idealize.ShloMosaic.PureOps.Ideal.Laws

noncomputable section

namespace Cert.ColumnNorm

open Idealize.ShloMosaic

/-- The pattern of `131072.0` denotes the real `131072`. -/
theorem ofBits_rows : Ideal.ofBits .f32 0x48000000#32 = ((131072 : ℝ) : EReal) := by
  simp [Ideal.ofBits, Ideal.ieee, -EReal.coe_mul]; norm_num

/-- The pattern of `+0.0` denotes `0`. -/
theorem ofBits_zero : Ideal.ofBits .f32 0x00000000#32 = (0 : EReal) := Ideal.ofBits_zero_f32

/-- The pattern of `+inf` denotes `⊤`. -/
theorem ofBits_inf : Ideal.ofBits .f32 0x7F800000#32 = (⊤ : EReal) := by
  simp [Ideal.ofBits, Ideal.ieee]

/-- An extended real whose absolute value compares below `+inf` is a real number. -/
theorem real_of_abs_lt (x : EReal)
    (h : Ideal.cmp .olt (max x (-x)) (Ideal.ofBits .f32 0x7F800000#32) = 1#1) : ∃ a : ℝ, x = (a : EReal) := by
  rw [ofBits_inf] at h
  have hlt : max x (-x) < ⊤ := by
    by_contra hc
    unfold Ideal.cmp at h
    simp [hc] at h
  induction x using EReal.rec with
  | bot => simp at hlt
  | coe a => exact ⟨a, rfl⟩
  | top => simp at hlt

/-- An extended real that compares above `+0.0` is positive. -/
theorem pos_of_cmp_gt (v : EReal) (h : Ideal.cmp .ogt v (Ideal.ofBits .f32 0x00000000#32) = 1#1) : 0 < v := by
  rw [ofBits_zero] at h
  by_contra hc
  unfold Ideal.cmp at h
  simp [hc] at h

/-- A finite sum of real numbers, taken in the extended reals, is the real sum. -/
theorem coe_sum {ι : Type*} (s : Finset ι) (a : ι → ℝ) :
    (∑ k ∈ s, ((a k : ℝ) : EReal)) = (((∑ k ∈ s, a k) : ℝ) : EReal) := by
  classical
  induction s using Finset.induction_on with
  | empty => simp
  | insert i s h ih => rw [Finset.sum_insert h, Finset.sum_insert h, ih, EReal.coe_add]

variable {ι : Type*} [Fintype ι]

/-- The column's mean as the host computes it: the sum from `+0.0`, divided by the row count. -/
def mean (col : ι → EReal) : EReal :=
  Ideal.div (Ideal.ofBits .f32 0x00000000#32 + ∑ k, col k) (Ideal.ofBits .f32 0x48000000#32)

/-- The column's biased variance as the host computes it: the mean of the squared deviations from the mean. -/
def variance (col : ι → EReal) : EReal :=
  Ideal.div (Ideal.ofBits .f32 0x00000000#32 + ∑ k, (col k - mean col) * (col k - mean col))
    (Ideal.ofBits .f32 0x48000000#32)

/-- Centre, divide by the standard deviation, scale and shift. -/
def centred (col : ι → EReal) (g b x : EReal) : EReal :=
  (x - mean col) * Ideal.rsqrt (variance col) * g + b

/-- The variance from the raw moments `s = ∑ col`, `q = ∑ col²`, clamped at zero. -/
def momentVar (s q : EReal) : EReal :=
  max (Ideal.div q (Ideal.ofBits .f32 0x48000000#32)
        - Ideal.div s (Ideal.ofBits .f32 0x48000000#32) * Ideal.div s (Ideal.ofBits .f32 0x48000000#32))
    (Ideal.ofBits .f32 0x00000000#32)

/-- The folded scale: the inverse standard deviation times the scale. -/
def foldScale (s q g : EReal) : EReal := Ideal.rsqrt (momentVar s q) * g

/-- The folded shift. -/
def foldShift (s q g b : EReal) : EReal :=
  b - Ideal.div s (Ideal.ofBits .f32 0x48000000#32) * foldScale s q g

/-- One multiply-add with the folded scale and shift. -/
def folded (s q g b x : EReal) : EReal := x * foldScale s q g + foldShift s q g b

/-! ## Over the reals -/

/-- The mean of the squares minus the squared mean is the mean of the squared deviations. -/
theorem moment_identity (a : ι → ℝ) (n : ℝ) (hn : n ≠ 0) (hcard : (Fintype.card ι : ℝ) = n) :
    (∑ k, a k * a k) * (1 / n) - (∑ k, a k) * (1 / n) * ((∑ k, a k) * (1 / n))
      = (∑ k, (a k - (∑ k, a k) * (1 / n)) * (a k - (∑ k, a k) * (1 / n))) * (1 / n) := by
  set μ := (∑ k, a k) * (1 / n) with hμ
  have hs : (∑ k, a k) = n * μ := by rw [hμ]; field_simp
  have h1 : ∑ k, (a k - μ) * (a k - μ) = (∑ k, a k * a k) - 2 * μ * (∑ k, a k) + n * (μ * μ) := by
    have e : ∀ k, (a k - μ) * (a k - μ) = a k * a k - 2 * μ * a k + μ * μ := fun k => by ring
    simp only [e, Finset.sum_add_distrib, Finset.sum_sub_distrib, ← Finset.mul_sum, Finset.sum_const,
      Finset.card_univ, nsmul_eq_mul, hcard]
    ring
  rw [h1, hs]
  field_simp
  ring

/-! ## On the extended reals, for real entries -/

section real

variable (a : ι → ℝ)

theorem mean_coe : mean (fun k => ((a k : ℝ) : EReal)) = (((∑ k, a k) * (1 / 131072) : ℝ) : EReal) := by
  unfold mean
  rw [ofBits_rows, ofBits_zero, zero_add, coe_sum, Ideal.div_coe (by norm_num), ← EReal.coe_mul]

theorem variance_coe :
    variance (fun k => ((a k : ℝ) : EReal))
      = (((∑ k, (a k - (∑ k, a k) * (1 / 131072)) * (a k - (∑ k, a k) * (1 / 131072))) * (1 / 131072) : ℝ) : EReal) := by
  unfold variance
  rw [mean_coe]
  simp only [← EReal.coe_sub, ← EReal.coe_mul]
  rw [ofBits_rows, ofBits_zero, zero_add, coe_sum, Ideal.div_coe (by norm_num), ← EReal.coe_mul]

/-- The clamped moment variance of real entries is their variance. -/
theorem momentVar_coe (hcard : (Fintype.card ι : ℝ) = 131072) :
    momentVar (∑ k, ((a k : ℝ) : EReal)) (∑ k, ((a k : ℝ) : EReal) * ((a k : ℝ) : EReal))
      = variance (fun k => ((a k : ℝ) : EReal)) := by
  rw [variance_coe]
  unfold momentVar
  simp only [← EReal.coe_mul]
  rw [coe_sum, coe_sum, ofBits_rows, ofBits_zero, Ideal.div_coe (by norm_num), Ideal.div_coe (by norm_num)]
  simp only [← EReal.coe_mul, ← EReal.coe_sub]
  rw [moment_identity a 131072 (by norm_num) hcard]
  refine max_eq_left ?_
  rw [show (0 : EReal) = ((0 : ℝ) : EReal) from rfl, EReal.coe_le_coe_iff]
  refine mul_nonneg (Finset.sum_nonneg fun k _ => mul_self_nonneg _) (by norm_num)

/-- THE LAW: for real entries of positive variance, a real scale and shift and a real entry `x`, the multiply-add with
    the folded scale and shift is the centred, normalised, scaled and shifted entry. -/
theorem folded_eq_centred (hcard : (Fintype.card ι : ℝ) = 131072) (g b x : ℝ)
    (hpos : 0 < variance (fun k => ((a k : ℝ) : EReal))) :
    folded (∑ k, ((a k : ℝ) : EReal)) (∑ k, ((a k : ℝ) : EReal) * ((a k : ℝ) : EReal)) g b x
      = centred (fun k => ((a k : ℝ) : EReal)) g b x := by
  unfold folded foldShift foldScale centred
  rw [momentVar_coe a hcard]
  have hm : Ideal.div (∑ k, ((a k : ℝ) : EReal)) (Ideal.ofBits .f32 0x48000000#32)
      = mean (fun k => ((a k : ℝ) : EReal)) := by
    unfold mean; rw [ofBits_zero, zero_add]
  rw [hm, mean_coe]
  rw [variance_coe] at hpos ⊢
  set σ : ℝ := (∑ k, (a k - (∑ k, a k) * (1 / 131072)) * (a k - (∑ k, a k) * (1 / 131072))) * (1 / 131072) with hσ
  have hσpos : 0 < σ := by
    rw [show (0 : EReal) = ((0 : ℝ) : EReal) from rfl, EReal.coe_lt_coe_iff] at hpos; exact hpos
  rw [Ideal.rsqrt_coe, if_neg (not_lt.mpr hσpos.le), if_neg hσpos.ne']
  simp only [← EReal.coe_mul, ← EReal.coe_sub, ← EReal.coe_add]
  refine congrArg _ ?_
  ring

end real

end Cert.ColumnNorm

end
-- ==== Proof.Glue.lean ====
/-
  The host operations between the two regions.

  From the two `[16, 512]` outputs of the statistics region (`S` for the sums, `Q` for the sums of squares; row 0
  holds the first share's total, row 8 the second's) and the arguments `gamma`, `beta`, the host forms four rows:

      mean   = (S[0] + S[8]) / N
      var    = max (((Q[0] + Q[8]) / N) − mean · mean, 0)
      scale  = var^(-1/2) · gamma
      shift  = beta − mean · scale.

  Read at column `j` the last two are the folded scale and shift of the column's raw moments `S(0, j) + S(8, j)` and
  `Q(0, j) + Q(8, j)`. No host operation writes `X`, so the second region finds it as the first one did.
-/
import proofs.«162346_j87076166959941_2_alg».proof.Proof.Gen.KernelIdeal.Frame
import proofs.«162346_j87076166959941_2_alg».proof.Proof.Spec
import Idealize.ShloMosaic.Lib.StableHlo.Run
import Idealize.ShloMosaic.Lib.Pipeline.Value
import Idealize.ShloMosaic.Lib.ValueIdx
import Idealize.ShloMosaic.Lib.Tactic

set_option maxRecDepth 16384

noncomputable section

namespace Cert.KernelIdeal.GlueValue

open Cert.KernelIdeal Cert.KernelIdeal.Gen Cert.ColumnNorm
open Idealize.ShloMosaic Idealize.ShloMosaic.TcCoe Idealize.SL.Sem Idealize.ShloMosaic.Tactic Idealize.ShloMosaic.ValueIdx
open Idealize.ShloMosaic.StableHlo

/-! ## The stages, as functions of the region's outputs and the arguments -/

/-- Rows 0 and 8 of a `[16, 512]` array, added. -/
def twoShares (S : FVec Ideal S16x512 .f32) : FVec Ideal S1x512 .f32 :=
  addf (extractStridedSlice S1x512 ![0, 0] S slices_S16x512_S1x512_0_0)
    (extractStridedSlice S1x512 ![8, 0] S slices_S16x512_S1x512_8_0)

/-- A scalar constant as a `[1, 512]` row. -/
def constRow (w : BitVec 32) : FVec Ideal S1x512 .f32 :=
  broadcastInDim S1x512 ![] bcast_S_S1x512 (constant (F := Ideal) S_ .f32 w)

def meanRow (S : FVec Ideal S16x512 .f32) : FVec Ideal S1x512 .f32 :=
  Host.divf (twoShares S) (constRow 0x48000000#32)

def varRow (S Q : FVec Ideal S16x512 .f32) : FVec Ideal S1x512 .f32 :=
  maximumf (subf (Host.divf (twoShares Q) (constRow 0x48000000#32)) (mulf (meanRow S) (meanRow S))) (constRow 0x00000000#32)

def scaleRow (S Q : FVec Ideal S16x512 .f32) (g : FVec Ideal S512 .f32) : FVec Ideal S1x512 .f32 :=
  mulf (Host.rsqrt (varRow S Q)) (shapeCast S1x512 g shapeCasts_S512_S1x512)

def shiftRow (S Q : FVec Ideal S16x512 .f32) (g b : FVec Ideal S512 .f32) : FVec Ideal S1x512 .f32 :=
  subf (shapeCast S1x512 b shapeCasts_S512_S1x512) (mulf (meanRow S) (scaleRow S Q g))

/-! ## The stages at column `j` -/

theorem twoShares_apply (S : FVec Ideal S16x512 .f32) (j : Fin 512) :
    twoShares S (ix2 (0 : Fin 1) j) = S (ix2 (0 : Fin 16) j) + S (ix2 (8 : Fin 16) j) := by
  unfold twoShares
  rw [addf_apply]
  refine congrArg₂ (· + ·) ?_ ?_
  · unfold extractStridedSlice
    refine congrArg S ?_
    funext a; apply Fin.ext
    match a with
    | ⟨0, _⟩ => rfl
    | ⟨1, _⟩ => show 0 + j.val = j.val; omega
  · unfold extractStridedSlice
    refine congrArg S ?_
    funext a; apply Fin.ext
    match a with
    | ⟨0, _⟩ => rfl
    | ⟨1, _⟩ => show 0 + j.val = j.val; omega

theorem constRow_apply (w : BitVec 32) (i : S1x512.Idx) : constRow w i = Ideal.ofBits .f32 w := by
  unfold constRow
  exact broadcastInDim_apply _ bcast_S_S1x512 (constant (F := Ideal) S_ .f32 w) i (fun a => a.elim0) (fun a => a.elim0)

/-- A `[512]` vector reshaped to a row, at `(0, j)`. -/
theorem row_apply (g : FVec Ideal S512 .f32) (j : Fin 512) :
    shapeCast S1x512 g shapeCasts_S512_S1x512 (ix2 (0 : Fin 1) j) = g (ix1 j) := by
  refine shapeCast_apply g shapeCasts_S512_S1x512 (ix2 (0 : Fin 1) j) (ix1 j) ?_
  rw [Shape.rowMajor_val_one, Shape.rowMajor_val_two]
  show j.val = (0 : Fin 1).val * 512 + j.val
  simp

theorem meanRow_apply (S : FVec Ideal S16x512 .f32) (j : Fin 512) :
    meanRow S (ix2 (0 : Fin 1) j)
      = Ideal.div (S (ix2 (0 : Fin 16) j) + S (ix2 (8 : Fin 16) j)) (Ideal.ofBits .f32 0x48000000#32) := by
  unfold meanRow
  show Ideal.div (twoShares S (ix2 (0 : Fin 1) j)) (constRow 0x48000000#32 (ix2 (0 : Fin 1) j)) = _
  rw [twoShares_apply, constRow_apply]

theorem varRow_apply (S Q : FVec Ideal S16x512 .f32) (j : Fin 512) :
    varRow S Q (ix2 (0 : Fin 1) j)
      = momentVar (S (ix2 (0 : Fin 16) j) + S (ix2 (8 : Fin 16) j)) (Q (ix2 (0 : Fin 16) j) + Q (ix2 (8 : Fin 16) j)) := by
  unfold varRow momentVar
  rw [maximumf_apply, subf_apply, mulf_apply, meanRow_apply, constRow_apply]
  show max (Ideal.div (twoShares Q (ix2 (0 : Fin 1) j)) (constRow 0x48000000#32 (ix2 (0 : Fin 1) j)) - _) _ = _
  rw [twoShares_apply, constRow_apply]

theorem scaleRow_apply (S Q : FVec Ideal S16x512 .f32) (g : FVec Ideal S512 .f32) (j : Fin 512) :
    scaleRow S Q g (ix2 (0 : Fin 1) j)
      = foldScale (S (ix2 (0 : Fin 16) j) + S (ix2 (8 : Fin 16) j)) (Q (ix2 (0 : Fin 16) j) + Q (ix2 (8 : Fin 16) j)) (g (ix1 j)) := by
  unfold scaleRow foldScale
  rw [mulf_apply, row_apply]
  show Ideal.rsqrt (varRow S Q (ix2 (0 : Fin 1) j)) * _ = _
  rw [varRow_apply]

theorem shiftRow_apply (S Q : FVec Ideal S16x512 .f32) (g b : FVec Ideal S512 .f32) (j : Fin 512) :
    shiftRow S Q g b (ix2 (0 : Fin 1) j)
      = foldShift (S (ix2 (0 : Fin 16) j) + S (ix2 (8 : Fin 16) j)) (Q (ix2 (0 : Fin 16) j) + Q (ix2 (8 : Fin 16) j))
          (g (ix1 j)) (b (ix1 j)) := by
  unfold shiftRow foldShift
  rw [subf_apply, mulf_apply, row_apply, meanRow_apply, scaleRow_apply]

/-! ## What the second region is entered with -/

variable (m : (ℓ : Loc nD τ sig) → Buf (Elt Ideal) ℓ) (ρ : Dev nD → PrngReg)

/-- The scale row the second region reads. -/
theorem entry_scale (c : Dev nD) :
    V2 m ρ c main_v18 = scaleRow (V1 m ρ c main_v0_0) (V1 m ρ c main_v0_1) (V1 m ρ c main_arg1) := by
  show StableHlo.after hostOps1 (W1 m ρ c) (Proc.devRef .tc main_v18) = _
  unfold scaleRow varRow meanRow twoShares constRow
  after_results
  rfl

set_option maxHeartbeats 2000000 in
/-- The shift row the second region reads. -/
theorem entry_shift (c : Dev nD) :
    V2 m ρ c main_v20
      = shiftRow (V1 m ρ c main_v0_0) (V1 m ρ c main_v0_1) (V1 m ρ c main_arg1) (V1 m ρ c main_arg2) := by
  show StableHlo.after hostOps1 (W1 m ρ c) (Proc.devRef .tc main_v20) = _
  unfold shiftRow scaleRow varRow meanRow twoShares constRow
  after_results
  rfl

/-- The host operations leave `X` alone. -/
theorem entry_x (c : Dev nD) : V2 m ρ c main_arg0 = V1 m ρ c main_arg0 := by
  show StableHlo.after hostOps1 (W1 m ρ c) (Proc.devRef .tc main_arg0) = _
  after_results

end Cert.KernelIdeal.GlueValue

end
-- ==== Proof.KernelValue.lean ====
/-
  The idealized kernel's result at an index.

  Following the buffer contents through @main: the statistics region leaves in its two outputs the per-share column
  sums of `X` and of its squares and leaves the arguments alone; the host operations turn these into the scale and
  shift rows and leave `X` alone; the normalisation region writes `X · scale + shift`. So the result at `(r, j)` is
  the folded multiply-add of `X(r, j)` with the raw moments `∑ₖ X(k, j)` and `∑ₖ X(k, j)²` of column `j` (the two
  shares' totals added). When the entries are real and column `j` has positive variance this is the centred,
  normalised, scaled and shifted entry.
-/
import proofs.«162346_j87076166959941_2_alg».proof.Proof.KernelRun
import proofs.«162346_j87076166959941_2_alg».proof.Proof.Norm
import proofs.«162346_j87076166959941_2_alg».proof.Proof.Stats
import proofs.«162346_j87076166959941_2_alg».proof.Proof.Glue
import proofs.«162346_j87076166959941_2_alg».proof.Proof.Spec

set_option maxRecDepth 16384

noncomputable section

namespace Cert.KernelIdeal.KernelValue

open Cert.KernelIdeal Cert.KernelIdeal.Gen Cert.ColumnNorm
open Idealize.ShloMosaic Idealize.ShloMosaic.TcCoe Idealize.SL.Sem Idealize.ShloMosaic.ValueIdx
open Cert.KernelIdeal.StatsValue Cert.KernelIdeal.GlueValue Cert.KernelIdeal.NormValue

variable (m : (ℓ : Loc nD τ sig) → Buf (Elt Ideal) ℓ) (ρ : Dev nD → PrngReg)

/-! ## After the statistics region -/

theorem after_stats_x (c : Dev nD) : V1 m ρ c main_arg0 = m ((c : Thread nD τ).loc main_arg0) :=
  (W1_arr m ρ c 0).trans (((dat0 (V0 m ρ) c).arrAt_in 0 rfl _).trans (A_eq0 (V0 m ρ) c 0))

theorem after_stats_gamma (c : Dev nD) : V1 m ρ c main_arg1 = m ((c : Thread nD τ).loc main_arg1) :=
  W1_of_ne m ρ c main_arg1 (by decide)

theorem after_stats_beta (c : Dev nD) : V1 m ρ c main_arg2 = m ((c : Thread nD τ).loc main_arg2) :=
  W1_of_ne m ρ c main_arg2 (by decide)

theorem after_stats_sum (c : Dev nD) :
    V1 m ρ c main_v0_0 = shareSum (m ((c : Thread nD τ).loc main_arg0)) (fun a => a) :=
  (W1_arr m ρ c 1).trans (final_sum (V0 m ρ) c)

theorem after_stats_sq (c : Dev nD) :
    V1 m ρ c main_v0_1 = shareSum (m ((c : Thread nD τ).loc main_arg0)) (fun a => a * a) :=
  (W1_arr m ρ c 2).trans (final_sq (V0 m ρ) c)

/-! ## The result array -/

/-- The result array as a function of the launch memory. -/
theorem result_eq (c : Dev nD) :
    V3 m ρ c main_v21
      = affine (m ((c : Thread nD τ).loc main_arg0))
          (scaleRow (shareSum (m ((c : Thread nD τ).loc main_arg0)) (fun a => a))
            (shareSum (m ((c : Thread nD τ).loc main_arg0)) (fun a => a * a)) (m ((c : Thread nD τ).loc main_arg1)))
          (shiftRow (shareSum (m ((c : Thread nD τ).loc main_arg0)) (fun a => a))
            (shareSum (m ((c : Thread nD τ).loc main_arg0)) (fun a => a * a)) (m ((c : Thread nD τ).loc main_arg1))
            (m ((c : Thread nD τ).loc main_arg2))) := by
  refine (W3_arr m ρ c 3).trans ((NormValue.final (V2 m ρ) c).trans ?_)
  rw [entry_x, entry_scale, entry_shift, after_stats_x, after_stats_gamma, after_stats_beta, after_stats_sum,
    after_stats_sq]

/-- The folded multiply-add over the two shares' totals, at `(r, j)`, for real entries and a column of positive
    variance: the centred, normalised, scaled and shifted entry. -/
theorem affine_apply (X : S131072x512.Idx → EReal) (G B : S512.Idx → EReal)
    (hX : ∀ i, ∃ a : ℝ, X i = (a : EReal)) (hG : ∀ i, ∃ a : ℝ, G i = (a : EReal)) (hB : ∀ i, ∃ a : ℝ, B i = (a : EReal))
    (r : Fin 131072) (j : Fin 512) (hvar : 0 < variance (fun k : Fin 131072 => X (ix2 k j))) :
    affine X (scaleRow (shareSum X (fun a => a)) (shareSum X (fun a => a * a)) G)
        (shiftRow (shareSum X (fun a => a)) (shareSum X (fun a => a * a)) G B) (ix2 r j)
      = centred (fun k : Fin 131072 => X (ix2 k j)) (G (ix1 j)) (B (ix1 j)) (X (ix2 r j)) := by
  show X (ix2 r j) * scaleRow (shareSum X (fun a => a)) (shareSum X (fun a => a * a)) G (ix2 (0 : Fin 1) j)
      + shiftRow (shareSum X (fun a => a)) (shareSum X (fun a => a * a)) G B (ix2 (0 : Fin 1) j) = _
  have hs : shareSum X (fun a => a) (ix2 (0 : Fin 16) j) + shareSum X (fun a => a) (ix2 (8 : Fin 16) j)
      = ∑ k : Fin 131072, X (ix2 k j) := shares_total X (fun a => a) j
  have hq : shareSum X (fun a => a * a) (ix2 (0 : Fin 16) j) + shareSum X (fun a => a * a) (ix2 (8 : Fin 16) j)
      = ∑ k : Fin 131072, X (ix2 k j) * X (ix2 k j) := shares_total X (fun a => a * a) j
  rw [scaleRow_apply, shiftRow_apply, hs, hq]
  obtain ⟨g, hg⟩ := hG (ix1 j)
  obtain ⟨b, hb⟩ := hB (ix1 j)
  choose a ha using fun k : Fin 131072 => hX (ix2 k j)
  rw [hg, hb]
  simp only [ha] at hvar ⊢
  exact folded_eq_centred a (by simp) g b (a r) hvar

/-- THE KERNEL AT AN INDEX, for real entries and a column of positive variance. -/
theorem result_apply (c : Dev nD)
    (hX : ∀ i, ∃ a : ℝ, (m ((c : Thread nD τ).loc main_arg0) : S131072x512.Idx → EReal) i = (a : EReal))
    (hG : ∀ i, ∃ a : ℝ, (m ((c : Thread nD τ).loc main_arg1) : S512.Idx → EReal) i = (a : EReal))
    (hB : ∀ i, ∃ a : ℝ, (m ((c : Thread nD τ).loc main_arg2) : S512.Idx → EReal) i = (a : EReal))
    (r : Fin 131072) (j : Fin 512)
    (hvar : 0 < variance (fun k : Fin 131072 => (m ((c : Thread nD τ).loc main_arg0) : S131072x512.Idx → EReal) (ix2 k j))) :
    (V3 m ρ c main_v21 : S131072x512.Idx → EReal) (ix2 r j)
      = centred (fun k : Fin 131072 => (m ((c : Thread nD τ).loc main_arg0) : S131072x512.Idx → EReal) (ix2 k j))
          ((m ((c : Thread nD τ).loc main_arg1) : S512.Idx → EReal) (ix1 j))
          ((m ((c : Thread nD τ).loc main_arg2) : S512.Idx → EReal) (ix1 j))
          ((m ((c : Thread nD τ).loc main_arg0) : S131072x512.Idx → EReal) (ix2 r j)) := by
  rw [result_eq]
  exact affine_apply _ _ _ hX hG hB r j hvar

end Cert.KernelIdeal.KernelValue

end
-- ==== Proof.RefValue.lean ====
/-
  The reference's result at an index.

  The reference centres each column of `X` by the column's mean, divides by the square root of the column's biased
  variance, scales by `gamma` and shifts by `beta`. Read at row `r`, column `j`, stage by stage:
  the column sum at `j` is `0 + ∑ₖ X(k, j)`; the mean row at `(0, j)` is that sum over the row count; the deviation
  at `(r, j)` is `X(r, j)` minus the mean; the variance at `j` is `0 + ∑ₖ` of the squared deviations of column `j`
  over the row count; and the result is the deviation times the inverse square root of the variance, times
  `gamma j`, plus `beta j`: the function `centred` of the column `k ↦ X(k, j)`.
-/
import proofs.«162346_j87076166959941_2_alg».proof.Proof.Gen.ReferenceIdeal.Read
import proofs.«162346_j87076166959941_2_alg».proof.Proof.Spec
import Idealize.ShloMosaic.Lib.ValueIdx

noncomputable section

namespace Cert.ReferenceIdeal.RefValue

open Cert.ReferenceIdeal Cert.ReferenceIdeal.Read Idealize.ShloMosaic Idealize.ShloMosaic.ValueIdx Cert.ColumnNorm

variable (X : (⟨S131072x512, .f32⟩ : BufTy).Contents (Elt Ideal))

/-- Column `j` of `X`, by row. -/
abbrev column (j : Fin 512) : Fin 131072 → EReal := fun k => X (ix2 k j)

/-! ## The index maps of the layout operations, at the indices used -/

theorem idx_sum (j : Fin 512) (k : Fin 131072) : idx_main_v0 (ix1 j) k = ix2 k j := by
  funext a; match a with | ⟨0, _⟩ => rfl | ⟨1, _⟩ => rfl
theorem idx_sumsq (j : Fin 512) (k : Fin 131072) : idx_main_v7 (ix1 j) k = ix2 k j := by
  funext a; match a with | ⟨0, _⟩ => rfl | ⟨1, _⟩ => rfl
theorem idx_row (j : Fin 512) : idx_main_v1 (ix2 (0 : Fin 1) j) = ix1 j := by
  funext a; match a with | ⟨0, _⟩ => rfl
theorem idx_rows (r : Fin 131072) (j : Fin 512) : idx_main_v4 (ix2 r j) = ix2 (0 : Fin 1) j := by
  funext a; match a with | ⟨0, _⟩ => rfl | ⟨1, _⟩ => rfl
theorem idx_inv_row (j : Fin 512) : idx_main_v11 (ix2 (0 : Fin 1) j) = ix1 j := by
  funext a; match a with | ⟨0, _⟩ => rfl
theorem idx_inv_rows (r : Fin 131072) (j : Fin 512) : idx_main_v12 (ix2 r j) = ix2 (0 : Fin 1) j := by
  funext a; match a with | ⟨0, _⟩ => rfl | ⟨1, _⟩ => rfl
theorem idx_gamma_row (j : Fin 512) : idx_main_v14 (ix2 (0 : Fin 1) j) = ix1 j := by
  funext a; match a with | ⟨0, _⟩ => rfl
theorem idx_gamma_rows (r : Fin 131072) (j : Fin 512) : idx_main_v15 (ix2 r j) = ix2 (0 : Fin 1) j := by
  funext a; match a with | ⟨0, _⟩ => rfl | ⟨1, _⟩ => rfl
theorem idx_beta_row (j : Fin 512) : idx_main_v17 (ix2 (0 : Fin 1) j) = ix1 j := by
  funext a; match a with | ⟨0, _⟩ => rfl
theorem idx_beta_rows (r : Fin 131072) (j : Fin 512) : idx_main_v18 (ix2 r j) = ix2 (0 : Fin 1) j := by
  funext a; match a with | ⟨0, _⟩ => rfl | ⟨1, _⟩ => rfl

/-! ## The stages -/

/-- The mean row at column `j` is the mean of column `j`. -/
theorem mean_apply (j : Fin 512) : val_main_v3 (F := Ideal) X (ix2 (0 : Fin 1) j) = mean (column X j) := by
  rw [val_main_v3_apply, val_main_v1_apply, idx_row, val_main_v0_apply, val_main_v2_apply, val_main_cst_0_apply,
    val_main_cst_apply]
  simp only [idx_sum, Ideal.hostDivf_def, Ideal.ofBits_def]
  rfl

/-- The deviation at `(r, j)`. -/
theorem dev_apply (r : Fin 131072) (j : Fin 512) :
    val_main_v5 (F := Ideal) X (ix2 r j) = X (ix2 r j) - mean (column X j) := by
  rw [val_main_v5_apply, val_main_v4_apply, idx_rows, mean_apply]
  rfl

/-- The variance at column `j` is the variance of column `j`. -/
theorem variance_apply (j : Fin 512) : val_main_v9 (F := Ideal) X (ix1 j) = variance (column X j) := by
  rw [val_main_v9_apply, val_main_v7_apply, val_main_v8_apply, val_main_cst_2_apply, val_main_cst_1_apply]
  simp only [idx_sumsq, val_main_v6_apply, dev_apply, Ideal.hostDivf_def, Ideal.ofBits_def, Ideal.mulf_def]
  rfl

/-- THE REFERENCE AT AN INDEX: the centred, normalised, scaled and shifted entry. -/
theorem result_apply (G B : (⟨S512, .f32⟩ : BufTy).Contents (Elt Ideal)) (r : Fin 131072) (j : Fin 512) :
    val_main_v19 (F := Ideal) X G B (ix2 r j)
      = centred (column X j) (G (ix1 j)) (B (ix1 j)) (X (ix2 r j)) := by
  rw [val_main_v19_apply, val_main_v16_apply, val_main_v13_apply, dev_apply,
    val_main_v12_apply, idx_inv_rows, val_main_v11_apply, idx_inv_row, val_main_v10_apply, variance_apply,
    val_main_v15_apply, idx_gamma_rows, val_main_v14_apply, idx_gamma_row,
    val_main_v18_apply, idx_beta_rows, val_main_v17_apply, idx_beta_row]
  simp only [Ideal.hostUnary_rsqrt_def, Ideal.mulf_def, Ideal.addf_def]
  rfl

end Cert.ReferenceIdeal.RefValue

end
-- ==== Proof.PreFacts.lean ====
/-
  What the precondition says, on the extended reals.

  The precondition is the conjunction of four `all`s: every entry of `X`, of `gamma` and of `beta` has absolute value
  below `+inf`, and every column of `X` has positive biased variance, the variance computed exactly as the reference
  computes the argument of its inverse square root. Read at the extended reals: every entry of the three arrays is a
  real number, and `0 < variance` of every column of `X`.
-/
import proofs.«162346_j87076166959941_2_alg».proof.Pre_finite_inputs
import proofs.«162346_j87076166959941_2_alg».proof.Proof.Gen.Pre_finite_inputs
import proofs.«162346_j87076166959941_2_alg».proof.Proof.RefValue
import Idealize.ShloMosaic.Lib.ReduceAll
import Idealize.ShloMosaic.Lib.Pipeline.Value
import Idealize.ShloMosaic.Lib.ValueIdx

noncomputable section

namespace Cert.Pre_finite_inputs.Decode

open Cert.Pre_finite_inputs Cert.Pre_finite_inputs.Gen
open Idealize.ShloMosaic Idealize.ShloMosaic.ValueIdx Cert.ColumnNorm

instance : Subsingleton S_.Idx := ⟨fun a b => funext fun d => d.elim0⟩

/-- A scalar constant broadcast to any shape, at an index. -/
theorem const_apply {t : Shape} (h : S_.BroadcastsInDim t (![] : Fin 0 → Fin t.rank)) (w : BitVec 32) (i : t.Idx) :
    broadcastInDim t ![] h (constant (F := Ideal) S_ .f32 w) i = Ideal.ofBits .f32 w :=
  broadcastInDim_apply _ h (constant (F := Ideal) S_ .f32 w) i (fun a => a.elim0) (fun a => a.elim0)

/-- THE PRECONDITION, READ: the three arrays hold real numbers and every column of `X` has positive variance. -/
theorem decode (X : FVec Ideal S131072x512 .f32) (G B : FVec Ideal S512 .f32)
    (h : fn (F := Ideal) X G B = fun _ => 1#1) :
    (∀ i, ∃ a : ℝ, X i = (a : EReal)) ∧ (∀ i, ∃ a : ℝ, G i = (a : EReal)) ∧ (∀ i, ∃ a : ℝ, B i = (a : EReal))
      ∧ ∀ j : Fin 512, 0 < variance (fun k : Fin 131072 => X (ix2 k j)) := by
  have h0 := congrFun h ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun j => ?_⟩
  · have e := Host.reduce_andi_all _ _ _ _ ix0 h1 i
    have e' : Ideal.cmp .olt (max (X i) (-(X i)))
        (broadcastInDim S131072x512 ![] bcast_S_S131072x512 (constant (F := Ideal) S_ .f32 0x7F800000#32) i) = 1#1 := e
    rw [const_apply] at e'
    exact real_of_abs_lt (X i) e'
  · have e := Host.reduce_andi_all _ _ _ _ ix0 h2 i
    have e' : Ideal.cmp .olt (max (G i) (-(G i)))
        (broadcastInDim S512 ![] bcast_S_S512 (constant (F := Ideal) S_ .f32 0x7F800000#32) i) = 1#1 := e
    rw [const_apply] at e'
    exact real_of_abs_lt (G i) e'
  · have e := Host.reduce_andi_all _ _ _ _ ix0 h3 i
    have e' : Ideal.cmp .olt (max (B i) (-(B i)))
        (broadcastInDim S512 ![] bcast_S_S512 (constant (F := Ideal) S_ .f32 0x7F800000#32) i) = 1#1 := e
    rw [const_apply] at e'
    exact real_of_abs_lt (B i) e'
  · have e := Host.reduce_andi_all _ _ _ _ ix0 h4 (ix1 j)
    have e' : Ideal.cmp .ogt (Cert.ReferenceIdeal.Read.val_main_v9 (F := Ideal) X (ix1 j))
        (broadcastInDim S512 ![] bcast_S_S512 (constant (F := Ideal) S_ .f32 0x00000000#32) (ix1 j)) = 1#1 := e
    rw [const_apply, Cert.ReferenceIdeal.RefValue.variance_apply] at e'
    exact pos_of_cmp_gt _ e'

end Cert.Pre_finite_inputs.Decode

end
-- ==== Proof.lean ====
/-
  A column-wise normalisation `Y = (X − mean) · var^(-1/2) · gamma + beta` over the 131072 rows of `X : [131072, 512]`,
  computed in two passes, against the one-pass textbook form.

  The kernel's first region accumulates, per column, the sum of the entries and of their squares (two shares of 65536
  rows, added on the host); the host forms `mean = s/N`, `var = max (q/N − mean², 0)`, `scale = var^(-1/2) · gamma`,
  `shift = beta − mean · scale`; the second region writes `X · scale + shift`. The reference centres first and takes
  the variance of the centred column. On the extended reals, for real entries, `q/N − mean²` IS the variance of the
  centred column, so the clamp at zero never binds; and where that variance is positive its inverse square root is
  a real number and the two results agree by a ring identity. Where a column is constant the variance is zero, its
  inverse square root is `+∞`, the reference itself meets `0 · ∞` and the two arrangements part: the precondition
  asks, besides finite inputs, that every column of `X` have positive variance.

  The three frames: the two kernels' by the generated frame certificates, the reference's from its generated run.
  The ideal pass rewrote nothing. The value claim: the kernel's run with its result named (Proof/KernelRun.lean), that
  result read index by index (Proof/Stats.lean, Proof/Glue.lean, Proof/Norm.lean, Proof/KernelValue.lean), the
  reference's run read index by index (Proof/RefValue.lean), the precondition read (Proof/PreFacts.lean) and the
  law that joins the two sides (Proof/Spec.lean).
-/
import proofs.«162346_j87076166959941_2_alg».proof.Defs
import proofs.«162346_j87076166959941_2_alg».proof.Proof.Gen.Kernel
import proofs.«162346_j87076166959941_2_alg».proof.Proof.Gen.Kernel.Skeleton
import proofs.«162346_j87076166959941_2_alg».proof.Proof.Gen.Kernel.Launch
import proofs.«162346_j87076166959941_2_alg».proof.Proof.Gen.Kernel.Points
import proofs.«162346_j87076166959941_2_alg».proof.Proof.Gen.Kernel.Frame
import proofs.«162346_j87076166959941_2_alg».proof.Proof.Gen.KernelIdeal
import proofs.«162346_j87076166959941_2_alg».proof.Proof.Gen.KernelIdeal.Skeleton
import proofs.«162346_j87076166959941_2_alg».proof.Proof.Gen.KernelIdeal.Launch
import proofs.«162346_j87076166959941_2_alg».proof.Proof.Gen.KernelIdeal.Points
import proofs.«162346_j87076166959941_2_alg».proof.Proof.Gen.KernelIdeal.Frame
import proofs.«162346_j87076166959941_2_alg».proof.Proof.Gen.ReferenceIdeal
import proofs.«162346_j87076166959941_2_alg».proof.Proof.Gen.Pre_finite_inputs
import proofs.«162346_j87076166959941_2_alg».proof.Proof.Gen.ReferenceIdeal.Run
import proofs.«162346_j87076166959941_2_alg».proof.Proof.Gen.ReferenceIdeal.Read
import proofs.«162346_j87076166959941_2_alg».proof.Proof.KernelValue
import proofs.«162346_j87076166959941_2_alg».proof.Proof.RefValue
import proofs.«162346_j87076166959941_2_alg».proof.Proof.PreFacts
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the centred, normalised, scaled and shifted
    entries, index by index. -/
theorem algebraic : Cert.algebraic_KernelIdeal_ReferenceIdeal := by
  intro m ρ m' ρ' hpre hagree
  refine ⟨fun c => Cert.KernelIdeal.Gen.V3 m ρ c Cert.KernelIdeal.main_v21, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2]
  obtain ⟨hX, hG, hB, hvar⟩ := Cert.Pre_finite_inputs.Decode.decode _ _ _ (hpre c)
  funext i
  obtain ⟨r, j, rfl⟩ : ∃ (r : Fin 131072) (j : Fin 512), i = ix2 r j := ⟨i 0, i 1, eq_ix2 i⟩
  rw [Cert.ReferenceIdeal.RefValue.result_apply]
  exact (Cert.KernelIdeal.KernelValue.result_apply m ρ c hX hG hB r j (hvar j)).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
